-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let c0_11 : Index := 0#32
  let arg0 : BitVec 32 := BitVec.ofNat 32 (i 0).val
  let c128_i32 : BitVec 32 := 128#32
  let v0 : BitVec 32 := Scalar.muli arg0 c128_i32
  let v1 : BitVec 32 := v0
  let v25 : Index := Scalar.indexCast v1
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  iota_S128x128_d0_w32 : S128x128.Iotas .tc 32 [0]
  iota_S128x128_d1_w32 : S128x128.Iotas .tc 32 [1]
  h_S128x128 : 0 < S128x128.numel
  shapeCasts_S128x128_S128x128 : S128x128.ShapeCasts S128x128
  broadcasts_S128x1_S128x128 : S128x1.Broadcasts S128x128
  hrank0 : 0 < grid0.rank
  k0_mult1_dvd : ∀ i : grid0.Coords, 128 ∣ (k0_mult1 i).toNat
  k0_off1_inb : ∀ i : grid0.Coords, ∀ a, (k0_off1 i) a + S128x128.size a ≤ S128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v11 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.BitsBody.lean ====
/-
  The frame of the word-level kernel: one pipelined region over 64 grid points, each staging a block of 128 full rows of the two
  arguments and of the result. The body's triple is proved once, over any float values: given the two input blocks it
  leaves the output block at the overlay of its two stores — the row-scaled products through the whole block, then the
  diagonal 128 × 128 square recomputed from what the first store left there. With that block named at every point,
  the region's run leaves both argument arrays as launched, which is the frame.
-/
import proofs.«163858_j48447231099314_2_alg».proof.Proof.Gen.Kernel.Frame
import proofs.«163858_j48447231099314_2_alg».proof.Proof.Gen.Kernel.Skeleton
import Idealize.ShloMosaic.Lib.Pipeline.Frame
import Idealize.ShloMosaic.Lib.Exec.Geometry
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two rectangles the body stores through -/

/-- The whole row block: 128 rows by all 8192 columns. -/
abbrev rAll : Rect S128x8192 := Rect.unit (s := S128x8192) ![0, 0] S128x8192.size inb_S128x8192_S128x8192_0_0
/-- The square on the diagonal at grid point `i`: all 128 rows, the 128 columns starting at `128 · i`. -/
abbrev rDiag (i : grid0.Coords) : Rect S128x8192 := Rect.unit (s := S128x8192) (k0_off1 i) S128x128.size (k0_off1_inb i)

/-- The whole block's offsets are zero on both axes. -/
theorem off_all : (![0, 0] : Fin 2 → Nat) = fun _ => 0 :=
  funext fun a => by match a with | ⟨0, _⟩ => rfl | ⟨1, _⟩ => rfl

/-! ## What the output block holds after the body -/

/-- The body's stores, latest first: the corrected diagonal square — computed from what the first store left
    there — over the row-scaled products stored through the whole block. -/
def pieces (i : grid0.Coords) (x0 x1 : Vec F S128x8192 .f32) : List (View.Piece (Elt F) S128x8192 .f32) :=
  [⟨rDiag i, k0_pay4 x0 x1 (View.ld (k0_pay3 x0 x1) (rDiag i))⟩, ⟨rAll, k0_pay3 x0 x1⟩]

/-- The output block as a function of the two input blocks and the grid point. -/
def outBlock (i : grid0.Coords) (x0 x1 : Vec F S128x8192 .f32) : Vec F S128x8192 .f32 := View.canon (pieces i x0 x1)

/-- The first store alone already covers the block, -/
theorem cover_all (w : rAll.shape.Idx → Elt F .f32) (y : S128x8192.Idx) :
    ∃ pc ∈ ([⟨rAll, w⟩] : List (View.Piece (Elt F) S128x8192 .f32)), y ∈ pc.1.set :=
  ⟨_, List.mem_singleton_self _, View.mem_set_unit_zero off_all inb_S128x8192_S128x8192_0_0 y⟩

/-- so the two stores cover it, whatever they store. -/
theorem cover_both (i : grid0.Coords) (w1 : (rDiag i).shape.Idx → Elt F .f32) (w2 : rAll.shape.Idx → Elt F .f32) (y : S128x8192.Idx) :
    ∃ pc ∈ ([⟨rDiag i, w1⟩, ⟨rAll, w2⟩] : List (View.Piece (Elt F) S128x8192 .f32)), y ∈ pc.1.set :=
  ⟨_, List.mem_cons_of_mem _ List.mem_cons_self, View.mem_set_unit_zero off_all inb_S128x8192_S128x8192_0_0 y⟩

/-- Reading the diagonal square back after the covering store finds that store's payload there; so the buffer's
    contents after both stores are `outBlock`, whatever view the buffer is read through and whatever it held. -/
theorem contents_after {κ : Kind} {sp : Space} (v : View sig κ sp S128x8192 .f32) (i : grid0.Coords) (x0 x1 : Vec F S128x8192 .f32) :
    View.read (Elt F) v (v.writes (Elt F) v.junk
      [⟨rDiag i, k0_pay4 (View.ld x0 rAll) (View.ld x1 rAll)
          (View.readAt (Elt F) v (rDiag i).toLoadRect
            (v.writes (Elt F) v.junk [⟨rAll, k0_pay3 (View.ld x0 rAll) (View.ld x1 rAll)⟩]))⟩,
       ⟨rAll, k0_pay3 (View.ld x0 rAll) (View.ld x1 rAll)⟩]) = outBlock i x0 x1 := by
  rw [View.read_writes_eq_canon _ _ _ (cover_both i _ _),
    View.readAt_writes_of_cover _ _ _ _ (fun j => cover_all _ _), View.readCov_eq_canon_ld _ _ _ (cover_all _),
    View.canon_unit_zero off_all, View.ld_unit_zero off_all, View.ld_unit_zero off_all]
  rfl

/-! ## The body's triple -/

set_option maxHeartbeats 2000000 in
/-- The kernel body on whole staging memrefs — the two inputs' at contents `x0`, `x1`, the output's at anything —
    runs to the continuation holding the inputs' as they were and the output's at `outBlock i x0 x1`: the first load
    of the output buffer reads contents nothing uses; the loads of the diagonal square come after the covering
    store and read the scaled products there. -/
theorem sound_kernel (c : Dev nD) (E : Set ℕ) (i : grid0.Coords)
    (arg1 : Memref sig .tc .vmem S128x8192 .f32) (harg1 : arg1.IsWhole) (arg2 : Memref sig .tc .vmem S128x8192 .f32) (harg2 : arg2.IsWhole)
    (arg3 : Memref sig .tc .vmem S128x8192 .f32) (harg3 : arg3.IsWhole)
    (x0 x1 : Vec F S128x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock i x0 x1)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact contents_after arg3.view i _ _

/-! ## The pipeline's proof data -/

/-- The proof data of the one pipeline on core `c`: the arrays as the region finds them; after the body at point `t`
    each input's buffer still at its block and the output's at `outBlock` of the two input blocks; the invariant is the
    scoped rest and the generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := rfl

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = outBlock (grid0.coords t) (iblk m c 0 t) (iblk m c 1 t) := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, the output's holds anything, so the triple applies;
    the invariant and the core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data's write-backs make of it, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.lean ====
/-
  The frame of the idealized kernel: one pipelined region over 64 grid points, each staging a block of 128 full rows of the two
  arguments and of the result. The body's triple is proved once, over any float values: given the two input blocks it
  leaves the output block at the overlay of its two stores — the row-scaled products through the whole block, then the
  diagonal 128 × 128 square recomputed from what the first store left there. With that block named at every point,
  the region's run leaves both argument arrays as launched, which is the frame.
-/
import proofs.«163858_j48447231099314_2_alg».proof.Proof.Gen.KernelIdeal.Frame
import proofs.«163858_j48447231099314_2_alg».proof.Proof.Gen.KernelIdeal.Skeleton
import Idealize.ShloMosaic.Lib.Pipeline.Frame
import Idealize.ShloMosaic.Lib.Exec.Geometry
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two rectangles the body stores through -/

/-- The whole row block: 128 rows by all 8192 columns. -/
abbrev rAll : Rect S128x8192 := Rect.unit (s := S128x8192) ![0, 0] S128x8192.size inb_S128x8192_S128x8192_0_0
/-- The square on the diagonal at grid point `i`: all 128 rows, the 128 columns starting at `128 · i`. -/
abbrev rDiag (i : grid0.Coords) : Rect S128x8192 := Rect.unit (s := S128x8192) (k0_off1 i) S128x128.size (k0_off1_inb i)

/-- The whole block's offsets are zero on both axes. -/
theorem off_all : (![0, 0] : Fin 2 → Nat) = fun _ => 0 :=
  funext fun a => by match a with | ⟨0, _⟩ => rfl | ⟨1, _⟩ => rfl

/-! ## What the output block holds after the body -/

/-- The body's stores, latest first: the corrected diagonal square — computed from what the first store left
    there — over the row-scaled products stored through the whole block. -/
def pieces (i : grid0.Coords) (x0 x1 : Vec F S128x8192 .f32) : List (View.Piece (Elt F) S128x8192 .f32) :=
  [⟨rDiag i, k0_pay4 x0 x1 (View.ld (k0_pay3 x0 x1) (rDiag i))⟩, ⟨rAll, k0_pay3 x0 x1⟩]

/-- The output block as a function of the two input blocks and the grid point. -/
def outBlock (i : grid0.Coords) (x0 x1 : Vec F S128x8192 .f32) : Vec F S128x8192 .f32 := View.canon (pieces i x0 x1)

/-- The first store alone already covers the block, -/
theorem cover_all (w : rAll.shape.Idx → Elt F .f32) (y : S128x8192.Idx) :
    ∃ pc ∈ ([⟨rAll, w⟩] : List (View.Piece (Elt F) S128x8192 .f32)), y ∈ pc.1.set :=
  ⟨_, List.mem_singleton_self _, View.mem_set_unit_zero off_all inb_S128x8192_S128x8192_0_0 y⟩

/-- so the two stores cover it, whatever they store. -/
theorem cover_both (i : grid0.Coords) (w1 : (rDiag i).shape.Idx → Elt F .f32) (w2 : rAll.shape.Idx → Elt F .f32) (y : S128x8192.Idx) :
    ∃ pc ∈ ([⟨rDiag i, w1⟩, ⟨rAll, w2⟩] : List (View.Piece (Elt F) S128x8192 .f32)), y ∈ pc.1.set :=
  ⟨_, List.mem_cons_of_mem _ List.mem_cons_self, View.mem_set_unit_zero off_all inb_S128x8192_S128x8192_0_0 y⟩

/-- Reading the diagonal square back after the covering store finds that store's payload there; so the buffer's
    contents after both stores are `outBlock`, whatever view the buffer is read through and whatever it held. -/
theorem contents_after {κ : Kind} {sp : Space} (v : View sig κ sp S128x8192 .f32) (i : grid0.Coords) (x0 x1 : Vec F S128x8192 .f32) :
    View.read (Elt F) v (v.writes (Elt F) v.junk
      [⟨rDiag i, k0_pay4 (View.ld x0 rAll) (View.ld x1 rAll)
          (View.readAt (Elt F) v (rDiag i).toLoadRect
            (v.writes (Elt F) v.junk [⟨rAll, k0_pay3 (View.ld x0 rAll) (View.ld x1 rAll)⟩]))⟩,
       ⟨rAll, k0_pay3 (View.ld x0 rAll) (View.ld x1 rAll)⟩]) = outBlock i x0 x1 := by
  rw [View.read_writes_eq_canon _ _ _ (cover_both i _ _),
    View.readAt_writes_of_cover _ _ _ _ (fun j => cover_all _ _), View.readCov_eq_canon_ld _ _ _ (cover_all _),
    View.canon_unit_zero off_all, View.ld_unit_zero off_all, View.ld_unit_zero off_all]
  rfl

/-! ## The body's triple -/

set_option maxHeartbeats 2000000 in
/-- The kernel body on whole staging memrefs — the two inputs' at contents `x0`, `x1`, the output's at anything —
    runs to the continuation holding the inputs' as they were and the output's at `outBlock i x0 x1`: the first load
    of the output buffer reads contents nothing uses; the loads of the diagonal square come after the covering
    store and read the scaled products there. -/
theorem sound_kernel (c : Dev nD) (E : Set ℕ) (i : grid0.Coords)
    (arg1 : Memref sig .tc .vmem S128x8192 .f32) (harg1 : arg1.IsWhole) (arg2 : Memref sig .tc .vmem S128x8192 .f32) (harg2 : arg2.IsWhole)
    (arg3 : Memref sig .tc .vmem S128x8192 .f32) (harg3 : arg3.IsWhole)
    (x0 x1 : Vec F S128x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock i x0 x1)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact contents_after arg3.view i _ _

/-! ## The pipeline's proof data -/

/-- The proof data of the one pipeline on core `c`: the arrays as the region finds them; after the body at point `t`
    each input's buffer still at its block and the output's at `outBlock` of the two input blocks; the invariant is the
    scoped rest and the generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := rfl

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) :
    (dats m 0 c).after 2 t = outBlock (grid0.coords t) (iblk m c 0 t) (iblk m c 1 t) := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, the output's holds anything, so the triple applies;
    the invariant and the core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data's write-backs make of it, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibGuardedInverse.lean ====
import Idealize.ShloMosaic.PureOps.Ideal
import Idealize.ShloMosaic.PureOps.Ideal.Laws
import Mathlib.Analysis.SpecialFunctions.Pow.Real

noncomputable section

namespace Cert.RowNormalize

open Idealize.ShloMosaic

/-! ## The four float literals the two programs spell, as extended reals -/

/-- The word `1.0` denotes the real one. -/
theorem ofBits_one : Ideal.ofBits .f32 0x3F800000#32 = ((1 : ℝ) : EReal) := by
  simp [Ideal.ofBits, Ideal.ieee, -EReal.coe_mul]; norm_num

/-- The word `-1.0` denotes the real minus one. -/
theorem ofBits_neg_one : Ideal.ofBits .f32 0xBF800000#32 = ((-1 : ℝ) : EReal) := by
  simp [Ideal.ofBits, Ideal.ieee, -EReal.coe_mul]; norm_num

/-- The word `0x7F800000` denotes plus infinity. -/
theorem ofBits_inf : Ideal.ofBits .f32 0x7F800000#32 = (⊤ : EReal) := by
  simp [Ideal.ofBits, Ideal.ieee]

/-! ## The guard: an infinite value is replaced by zero -/

/-- `where(isinf v, 0, v)` as both programs spell it: compare `|v|` with plus infinity, select zero or `v`. -/
def guard (v : EReal) : EReal :=
  Scalar.select (Ideal.cmp .oeq (max v (-v)) (Ideal.ofBits .f32 0x7F800000#32)) (Ideal.ofBits .f32 0x00000000#32) v

/-- A real number passes the guard unchanged: its absolute value is not infinite. -/
theorem guard_coe (r : ℝ) : guard (r : EReal) = (r : EReal) := by
  unfold guard
  have h : max (r : EReal) (-(r : EReal)) ≠ ⊤ := by
    rcases max_choice (r : EReal) (-(r : EReal)) with h | h <;> rw [h]
    · exact EReal.coe_ne_top r
    · rw [← EReal.coe_neg]; exact EReal.coe_ne_top _
  rw [ofBits_inf]
  simp only [Ideal.cmp, decide_eq_false h, BitVec.ofBool_false]
  exact if_neg (by decide)

/-- Plus infinity is caught by the guard. -/
theorem guard_top : guard (⊤ : EReal) = 0 := by
  unfold guard
  rw [ofBits_inf, Ideal.ofBits_zero_f32]
  have h : max (⊤ : EReal) (-(⊤ : EReal)) = ⊤ := max_eq_left (by simp)
  simp only [Ideal.cmp, h, decide_true, BitVec.ofBool_true]
  exact if_pos rfl

/-! ## The two reciprocals -/

/-- The kernel's reciprocal of a row sum: `1.0 / s`, guarded. -/
def recipDiv (s : EReal) : EReal := guard (Ideal.div (Ideal.ofBits .f32 0x3F800000#32) s)

/-- The reference's: `s ** (-1.0)`, guarded. -/
def recipPow (s : EReal) : EReal := guard (Ideal.pow s (Ideal.ofBits .f32 0xBF800000#32))

/-- On a real `s` the kernel's reciprocal is the real inverse, with `0⁻¹ = 0`: off zero the quotient is the real
    quotient; at zero the quotient is plus infinity, which the guard replaces by zero. -/
theorem recipDiv_coe (s : ℝ) : recipDiv (s : EReal) = ((s⁻¹ : ℝ) : EReal) := by
  unfold recipDiv
  rw [ofBits_one]
  by_cases hs : s = 0
  · subst hs
    have : Ideal.div ((1 : ℝ) : EReal) ((0 : ℝ) : EReal) = ⊤ := by
      unfold Ideal.div
      rw [if_pos (by simp), if_pos (by simp)]
    rw [this, guard_top]; simp
  · rw [Ideal.div_coe hs, ← EReal.coe_mul, guard_coe]
    congr 1; field_simp

/-- On a real `s` the reference's reciprocal is the same real inverse: the real power `s ^ (-1)` is `s⁻¹` for
    every real `s`, zero included. -/
theorem recipPow_coe (s : ℝ) : recipPow (s : EReal) = ((s⁻¹ : ℝ) : EReal) := by
  unfold recipPow
  rw [ofBits_neg_one, Ideal.pow_coe_coe, guard_coe]
  congr 1
  exact Real.rpow_neg_one s

end Cert.RowNormalize

end
-- ==== Proof.Spec.lean ====
import proofs.«163858_j48447231099314_2_alg».proof.Proof.LibGuardedInverse
import Idealize.ShloMosaic.Lib.ValueIdx

noncomputable section

namespace Cert.RowNormalize

open Idealize.ShloMosaic Idealize.ShloMosaic.ValueIdx

/-- The square arrays' shape: 8192 rows, 8192 columns. -/
abbrev Sq : Shape := ⟨2, ![8192, 8192]⟩

/-- The identity matrix's entry at an index, as a real. -/
def eyeAt (j : Sq.Idx) : ℝ := if (j 0).val = (j 1).val then 1 else 0

/-! ## The two arrangements of the row-normalized matrix -/

/-- THE KERNEL'S ARRANGEMENT. With `a = x0 · x1` entrywise, row `r` is scaled by the guarded inverse of `Σ_k a(r,k) + 1`
    (the identity's one is added to the row sum, not to the entries); inside the 128 × 128 square on the diagonal
    that holds row `r` the scaled identity entry is added afterwards; outside it nothing is added. -/
def kernelForm (x0 x1 : Sq.Idx → EReal) (i : Sq.Idx) : EReal :=
  if (i 0).val / 128 = (i 1).val / 128 then
    recipDiv ((∑ k : Fin 8192, x0 (ix2 (i 0) k) * x1 (ix2 (i 0) k)) + ((1 : ℝ) : EReal)) * (x0 i * x1 i)
      + recipDiv ((∑ k : Fin 8192, x0 (ix2 (i 0) k) * x1 (ix2 (i 0) k)) + ((1 : ℝ) : EReal)) * ((eyeAt i : ℝ) : EReal)
  else
    recipDiv ((∑ k : Fin 8192, x0 (ix2 (i 0) k) * x1 (ix2 (i 0) k)) + ((1 : ℝ) : EReal)) * (x0 i * x1 i)

/-- THE REFERENCE'S ARRANGEMENT. The identity is added to the entries first, `mx = a + I`; row `r` of `mx` is scaled
    by the guarded `(-1)`-st power of its sum `0 + Σ_k mx(r,k)`. -/
def refForm (x0 x1 : Sq.Idx → EReal) (i : Sq.Idx) : EReal :=
  recipPow (0 + ∑ k : Fin 8192, (x0 (ix2 (i 0) k) * x1 (ix2 (i 0) k) + ((eyeAt (ix2 (i 0) k) : ℝ) : EReal)))
    * (x0 i * x1 i + ((eyeAt i : ℝ) : EReal))

/-! ## The law between them, on real entries -/

/-- A finite sum of reals read as extended reals is the real sum. -/
theorem coe_finset_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Row `r` of the identity sums to one: exactly one of its entries is one. -/
theorem sum_eye_row (r : Fin 8192) : ∑ k : Fin 8192, eyeAt (ix2 r k) = 1 := by
  have h : ∀ k : Fin 8192, eyeAt (ix2 r k) = if r = k then (1 : ℝ) else 0 := fun k => by
    unfold eyeAt
    show (if r.val = k.val then (1 : ℝ) else 0) = _
    simp only [Fin.val_inj]
  rw [Finset.sum_congr rfl fun k _ => h k, Finset.sum_ite_eq]
  simp

/-- On real entries the kernel's row scale is the inverse of the real row sum plus one, -/
theorem kernel_scale (A0 A1 : Sq.Idx → ℝ) (r : Fin 8192) :
    recipDiv ((∑ k : Fin 8192, ((A0 (ix2 r k) : ℝ) : EReal) * ((A1 (ix2 r k) : ℝ) : EReal)) + ((1 : ℝ) : EReal))
      = ((((∑ k : Fin 8192, A0 (ix2 r k) * A1 (ix2 r k)) + 1)⁻¹ : ℝ) : EReal) := by
  simp only [← EReal.coe_mul]
  rw [coe_finset_sum, ← EReal.coe_add, recipDiv_coe]

/-- and so is the reference's: summing `a + I` along a row adds the identity's one to the row sum of `a`. -/
theorem ref_scale (A0 A1 : Sq.Idx → ℝ) (r : Fin 8192) :
    recipPow (0 + ∑ k : Fin 8192, (((A0 (ix2 r k) : ℝ) : EReal) * ((A1 (ix2 r k) : ℝ) : EReal) + ((eyeAt (ix2 r k) : ℝ) : EReal)))
      = ((((∑ k : Fin 8192, A0 (ix2 r k) * A1 (ix2 r k)) + 1)⁻¹ : ℝ) : EReal) := by
  simp only [← EReal.coe_mul, ← EReal.coe_add]
  rw [coe_finset_sum, zero_add, Finset.sum_add_distrib, sum_eye_row, recipPow_coe]

/-- Distributivity on reals read as extended reals: a real scale times an entry, plus the scale times an identity
    entry, is the scale times their sum. (It fails at an infinite scale; the guard is what makes the scale real.) -/
theorem scale_add (ρ a0 a1 δ : ℝ) :
    (ρ : EReal) * ((a0 : EReal) * (a1 : EReal)) + (ρ : EReal) * (δ : EReal)
      = (ρ : EReal) * ((a0 : EReal) * (a1 : EReal) + (δ : EReal)) := by
  simp only [← EReal.coe_mul, ← EReal.coe_add]
  exact congrArg (fun x : ℝ => (x : EReal)) (mul_add ρ (a0 * a1) δ).symm

/-- Adding a zero identity entry changes nothing. -/
theorem scale_add_zero (ρ a0 a1 : ℝ) :
    (ρ : EReal) * ((a0 : EReal) * (a1 : EReal))
      = (ρ : EReal) * ((a0 : EReal) * (a1 : EReal) + ((0 : ℝ) : EReal)) := by
  rw [EReal.coe_zero, add_zero]

/-- THE LAW: on arrays of real numbers the two arrangements are one function. Inside the diagonal square it is
    `ρ·a + ρ·δ = ρ·(a + δ)` — distributivity, which holds because the guarded scale `ρ` and the entries are real —;
    outside it the identity's entry is zero (a diagonal index lies in its row's square). -/
theorem kernelForm_eq_refForm (A0 A1 : Sq.Idx → ℝ) (i : Sq.Idx) :
    kernelForm (fun j => ((A0 j : ℝ) : EReal)) (fun j => ((A1 j : ℝ) : EReal)) i
      = refForm (fun j => ((A0 j : ℝ) : EReal)) (fun j => ((A1 j : ℝ) : EReal)) i := by
  unfold kernelForm refForm
  dsimp only
  rw [kernel_scale A0 A1 (i 0), ref_scale A0 A1 (i 0)]
  by_cases h : (i 0).val / 128 = (i 1).val / 128
  · rw [if_pos h]
    exact scale_add _ _ _ _
  · rw [if_neg h]
    have h0 : eyeAt i = 0 := by
      unfold eyeAt
      exact if_neg fun e => h (by rw [e])
    rw [h0]
    exact scale_add_zero _ _ _

end Cert.RowNormalize

end
-- ==== Proof.LibCounterCompare.lean ====
import Idealize.ShloMosaic.PureOps.Ideal

noncomputable section

namespace Cert.RowNormalize

open Idealize.ShloMosaic

/-! ## The identity matrix's entries as the programs compute them: two counters compared, the bit converted -/

/-- Two counters below 8192, as 32-bit words, compare equal exactly when the numbers are equal. -/
theorem cmpi_eq_ofNat (a b : Nat) (ha : a < 8192) (hb : b < 8192) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := by
      intro e
      have e' := congrArg BitVec.toNat e
      simp only [BitVec.toNat_ofNat] at e'
      omega
    rw [if_neg h, beq_eq_false_iff_ne.mpr hne]; rfl

/-- The comparison bit converted to a float is the real `1` on equal counters and `0` otherwise. -/
theorem uitofp_cmpi_eq (a b : Nat) (ha : a < 8192) (hb : b < 8192) :
    FloatOps.uitofp (F := Ideal) .f32 (IntOp.cmpi .eq (BitVec.ofNat 32 a) (BitVec.ofNat 32 b))
      = (((if a = b then 1 else 0 : ℝ)) : EReal) := by
  rw [cmpi_eq_ofNat a b ha hb]
  show (((if a = b then 1#1 else 0#1 : BitVec 1).toNat : ℝ) : EReal) = _
  by_cases h : a = b
  · rw [if_pos h, if_pos h]; simp
  · rw [if_neg h, if_neg h]; simp

/-- Selecting the words `1.0` / `0.0` on that bit gives the same reals. -/
theorem select_cmpi_eq (a b : Nat) (ha : a < 8192) (hb : b < 8192) (one zero : EReal) :
    Scalar.select (IntOp.cmpi .eq (BitVec.ofNat 32 a) (BitVec.ofNat 32 b)) one zero = if a = b then one else zero := by
  rw [cmpi_eq_ofNat a b ha hb]
  by_cases h : a = b
  · rw [if_pos h, if_pos h]; exact if_pos rfl
  · rw [if_neg h, if_neg h]; exact if_neg (by decide)

end Cert.RowNormalize

end
-- ==== Proof.BlockValue.lean ====
import proofs.«163858_j48447231099314_2_alg».proof.Proof.IdealBody
import proofs.«163858_j48447231099314_2_alg».proof.Proof.Spec
import proofs.«163858_j48447231099314_2_alg».proof.Proof.LibCounterCompare
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Cert.KernelIdeal.Body Cert.RowNormalize
open Idealize.ShloMosaic Idealize.ShloMosaic.ValueIdx

/-- A row's scale inside one row block: the guarded inverse of the row's sum of products plus one. -/
def rowScale (b0 b1 : S128x8192.Idx → EReal) (p : Fin 128) : EReal :=
  recipDiv ((∑ k : Fin 8192, b0 (ix2 p k) * b1 (ix2 p k)) + ((1 : ℝ) : EReal))

/-! ## The body's arithmetic, read at an index -/

/-- The lane reduction of a [128, 8192] block at row `p` is the sum over the row's 8192 columns. -/
theorem rowsum_at (v : FVec Ideal S128x8192 .f32) (p : Fin 128) :
    multiReduction .add [1] S128 v 0x00000000#32 reduces_S128x8192_S128 (.inl rfl) rfl (ix1 p) = ∑ k : Fin 8192, v (ix2 p k) :=
  (Ideal.multiReduction_add_single v 0x00000000#32 reduces_S128x8192_S128 (.inl rfl) rfl (ix1 p)).trans
    (Finset.sum_congr rfl fun k _ => congrArg v (funext fun a => Fin.ext (by match a with | ⟨0, _⟩ => rfl | ⟨1, _⟩ => rfl)))

/-- The column of row sums, kept as a [128, 1] array, at `(p, 0)` is row `p`'s entry of the [128] vector. -/
theorem keepdims_at (v : FVec Ideal S128 .f32) (p : Fin 128) :
    shapeCast S128x1 v shapeCasts_S128_S128x1 (ix2 p (0 : Fin 1)) = v (ix1 p) :=
  shapeCast_apply v shapeCasts_S128_S128x1 (ix2 p (0 : Fin 1)) (ix1 p) (by
    rw [Shape.rowMajor_val_one, Shape.rowMajor_val_two]
    show p.val = p.val * 1 + 0
    omega)

/-- THE ROW SCALE the body computes, at row `p`: `1.0 / (rowsum + 1.0)` with an infinite quotient replaced by zero. -/
theorem scale_at (b0 b1 : Vec Ideal S128x8192 .f32) (p : Fin 128) :
    k0_pay2 (F := Ideal) b0 b1 (ix2 p (0 : Fin 1)) = rowScale b0 b1 p := by
  unfold k0_pay2 rowScale recipDiv
  show guard (Ideal.div (Ideal.ofBits .f32 0x3F800000#32)
      (shapeCast S128x1 (multiReduction .add [1] S128 (k0_pay1 b0 b1) 0x00000000#32 reduces_S128x8192_S128 (.inl rfl) rfl)
        shapeCasts_S128_S128x1 (ix2 p (0 : Fin 1)) + Ideal.ofBits .f32 0x3F800000#32)) = _
  refine congrArg (fun s => guard (Ideal.div (Ideal.ofBits .f32 0x3F800000#32) s)) ?_
  refine (congrArg (· + Ideal.ofBits .f32 0x3F800000#32) ((keepdims_at _ p).trans (rowsum_at _ p))).trans ?_
  exact congrArg ((∑ k : Fin 8192, b0 (ix2 p k) * b1 (ix2 p k)) + ·) ofBits_one

/-- The column of scales spread over the block's columns reads, at `(p, q)`, row `p`'s scale. -/
theorem spread_at (s : FVec Ideal S128x1 .f32) (p : Fin 128) (q : Fin 8192) :
    broadcastTo S128x8192 s broadcasts_S128x1_S128x8192 (ix2 p q) = s (ix2 p (0 : Fin 1)) :=
  broadcastTo_apply s broadcasts_S128x1_S128x8192 (ix2 p q) (ix2 p (0 : Fin 1)) (fun a => by
    match a with
    | ⟨0, _⟩ => show p.val = if (128 : Nat) = 1 then 0 else p.val; rw [if_neg (by decide)]
    | ⟨1, _⟩ => show (0 : Nat) = if (1 : Nat) = 1 then 0 else q.val; rw [if_pos rfl])

/-- and over the 128 columns of the diagonal square likewise. -/
theorem spread_sq_at (s : FVec Ideal S128x1 .f32) (p j : Fin 128) :
    broadcastTo S128x128 s broadcasts_S128x1_S128x128 (ix2 p j) = s (ix2 p (0 : Fin 1)) :=
  broadcastTo_apply s broadcasts_S128x1_S128x128 (ix2 p j) (ix2 p (0 : Fin 1)) (fun a => by
    match a with
    | ⟨0, _⟩ => show p.val = if (128 : Nat) = 1 then 0 else p.val; rw [if_neg (by decide)]
    | ⟨1, _⟩ => show (0 : Nat) = if (1 : Nat) = 1 then 0 else j.val; rw [if_pos rfl])

/-- THE FIRST STORE's payload at `(p, q)`: row `p`'s scale times the product of the two inputs there. -/
theorem scaled_at (b0 b1 : Vec Ideal S128x8192 .f32) (p : Fin 128) (q : Fin 8192) :
    k0_pay3 (F := Ideal) b0 b1 (ix2 p q) = rowScale b0 b1 p * (b0 (ix2 p q) * b1 (ix2 p q)) := by
  unfold k0_pay3
  show broadcastTo S128x8192 (k0_pay2 (F := Ideal) b0 b1) broadcasts_S128x1_S128x8192 (ix2 p q) * (b0 (ix2 p q) * b1 (ix2 p q)) = _
  exact congrArg (· * (b0 (ix2 p q) * b1 (ix2 p q))) ((spread_at _ p q).trans (scale_at b0 b1 p))

/-- THE SECOND STORE's payload at `(p, j)` of the diagonal square: what was read back there plus row `p`'s scale times
    the small identity's entry — the real one where the row and column counters agree, zero elsewhere. -/
theorem corrected_at (b0 b1 : Vec Ideal S128x8192 .f32) (d : Vec Ideal S128x128 .f32) (p j : Fin 128) :
    k0_pay4 (F := Ideal) b0 b1 d (ix2 p j)
      = d (ix2 p j) + rowScale b0 b1 p * (((if p.val = j.val then 1 else 0 : ℝ)) : EReal) := by
  unfold k0_pay4
  show shapeCast S128x128 d shapeCasts_S128x128_S128x128 (ix2 p j)
      + broadcastTo S128x128 (k0_pay2 (F := Ideal) b0 b1) broadcasts_S128x1_S128x128 (ix2 p j)
        * Scalar.select (IntOp.cmpi .eq (BitVec.ofNat 32 (0 * 128 + p.val)) (BitVec.ofNat 32 (0 * 128 + j.val)))
            (Ideal.ofBits .f32 0x3F800000#32) (Ideal.ofBits .f32 0x00000000#32) = _
  have hd : shapeCast S128x128 d shapeCasts_S128x128_S128x128 (ix2 p j) = d (ix2 p j) :=
    congrFun (shapeCast_self d shapeCasts_S128x128_S128x128) (ix2 p j)
  have he : Scalar.select (IntOp.cmpi .eq (BitVec.ofNat 32 (0 * 128 + p.val)) (BitVec.ofNat 32 (0 * 128 + j.val)))
      (Ideal.ofBits .f32 0x3F800000#32) (Ideal.ofBits .f32 0x00000000#32) = (((if p.val = j.val then 1 else 0 : ℝ)) : EReal) := by
    rw [Nat.zero_mul, Nat.zero_add, Nat.zero_add, select_cmpi_eq _ _ (by omega) (by omega), ofBits_one, Ideal.ofBits_zero_f32]
    by_cases h : p.val = j.val
    · rw [if_pos h, if_pos h]
    · rw [if_neg h, if_neg h]; rfl
  rw [hd, he]
  exact congrArg (fun s => d (ix2 p j) + s * (((if p.val = j.val then 1 else 0 : ℝ)) : EReal)) ((spread_sq_at _ p j).trans (scale_at b0 b1 p))

end Cert.KernelIdeal.BlockValue

end
-- ==== Proof.BlockForm.lean ====
import proofs.«163858_j48447231099314_2_alg».proof.Proof.BlockValue

set_option maxRecDepth 16384

noncomputable section

namespace Cert.KernelIdeal.BlockValue

open Cert.KernelIdeal Cert.KernelIdeal.Gen Cert.KernelIdeal.Body Cert.RowNormalize
open Idealize.ShloMosaic Idealize.ShloMosaic.ValueIdx

/-! ## The diagonal square inside the row block -/

/-- Entry `(p, j)` of the diagonal square at grid point `i` is entry `(p, 128·i + j)` of the row block. -/
theorem emb_diag (i : grid0.Coords) (p j : Fin 128) (q : Fin 8192) (hq : q.val = 128 * (i 0).val + j.val) :
    (rDiag i).emb (ix2 p j) = ix2 p q := by
  funext a; apply Fin.ext
  have e := k0_off1_eq i
  match a with
  | ⟨0, _⟩ =>
    show (k0_off1 i) 0 + 1 * p.val = p.val
    rw [e]; show 0 + 1 * p.val = p.val; omega
  | ⟨1, _⟩ =>
    show (k0_off1 i) 1 + 1 * j.val = q.val
    rw [e]; show 128 * (i 0).val + 1 * j.val = q.val; omega

/-- A column outside `[128·i, 128·i + 128)` is outside the diagonal square. -/
theorem not_mem_diag (i : grid0.Coords) (p : Fin 128) (q : Fin 8192)
    (h : ¬(128 * (i 0).val ≤ q.val ∧ q.val < 128 * (i 0).val + 128)) : ix2 p q ∉ (rDiag i).set := by
  intro hm
  have h1 := (Rect.mem_set_unit.mp hm) 1
  have e : k0_off1 i 1 = 128 * (i 0).val := by rw [k0_off1_eq]; rfl
  rw [e] at h1
  exact h ⟨h1.1, h1.2⟩

/-! ## The output block, read at an index -/

section AnyFloats

variable {F : FTy → Type} [FloatOps F]

/-- Inside the diagonal square the block holds the second store's payload, -/
theorem outBlock_in (i : grid0.Coords) (b0 b1 : Vec F S128x8192 .f32) (x : (rDiag i).shape.Idx) :
    outBlock i b0 b1 ((rDiag i).emb x) = k0_pay4 b0 b1 (View.ld (k0_pay3 b0 b1) (rDiag i)) x :=
  View.canon_cons_emb (rDiag i) _ _ x

/-- and the first store alone leaves its payload everywhere, -/
theorem canon_all (w : Vec F S128x8192 .f32) :
    View.canon ([⟨rAll, w⟩] : List (View.Piece (Elt F) S128x8192 .f32)) = w := by
  rw [View.canon_unit_zero off_all]

/-- so outside the square the block holds the first store's. -/
theorem outBlock_out (i : grid0.Coords) (b0 b1 : Vec F S128x8192 .f32) (y : S128x8192.Idx) (h : y ∉ (rDiag i).set) :
    outBlock i b0 b1 y = k0_pay3 b0 b1 y := by
  unfold outBlock pieces
  rw [View.canon_cons_of_not_mem
    (⟨rDiag i, k0_pay4 b0 b1 (View.ld (k0_pay3 b0 b1) (rDiag i))⟩ : View.Piece (Elt F) S128x8192 .f32) [⟨rAll, k0_pay3 b0 b1⟩] h,
    canon_all]

end AnyFloats

/-- THE OUTPUT BLOCK at `(p, q)`: row `p`'s scale times the product there; on the 128 columns of the diagonal square
    the scale times the identity's entry is added — the second store read the first store's value back and added it. -/
theorem outBlock_at (i : grid0.Coords) (b0 b1 : Vec Ideal S128x8192 .f32) (p : Fin 128) (q : Fin 8192) :
    outBlock (F := Ideal) i b0 b1 (ix2 p q) =
      if 128 * (i 0).val ≤ q.val ∧ q.val < 128 * (i 0).val + 128 then
        rowScale b0 b1 p * (b0 (ix2 p q) * b1 (ix2 p q))
          + rowScale b0 b1 p * (((if p.val + 128 * (i 0).val = q.val then 1 else 0 : ℝ)) : EReal)
      else rowScale b0 b1 p * (b0 (ix2 p q) * b1 (ix2 p q)) := by
  by_cases h : 128 * (i 0).val ≤ q.val ∧ q.val < 128 * (i 0).val + 128
  · rw [if_pos h]
    have hj : q.val - 128 * (i 0).val < 128 := by omega
    have hemb := emb_diag i p ⟨q.val - 128 * (i 0).val, hj⟩ q (by show q.val = 128 * (i 0).val + (q.val - 128 * (i 0).val); omega)
    have e1 := outBlock_in i b0 b1 (ix2 p (⟨q.val - 128 * (i 0).val, hj⟩ : Fin 128))
    rw [hemb] at e1
    have e2 : (View.ld (k0_pay3 (F := Ideal) b0 b1) (rDiag i) : Vec Ideal S128x128 .f32) (ix2 p (⟨q.val - 128 * (i 0).val, hj⟩ : Fin 128))
        = k0_pay3 (F := Ideal) b0 b1 (ix2 p q) := congrArg (k0_pay3 (F := Ideal) b0 b1) hemb
    have e3 : (if p.val = q.val - 128 * (i 0).val then (1 : ℝ) else 0) = (if p.val + 128 * (i 0).val = q.val then (1 : ℝ) else 0) :=
      if_congr (by omega) rfl rfl
    rw [e1, corrected_at, e2, scaled_at]
    exact congrArg (fun z : ℝ => rowScale b0 b1 p * (b0 (ix2 p q) * b1 (ix2 p q)) + rowScale b0 b1 p * ((z : ℝ) : EReal)) e3
  · rw [if_neg h, outBlock_out i b0 b1 _ (not_mem_diag i p q h), scaled_at]

/-! ## A block of the kernel's arrangement -/

/-- The kernel's arrangement at row `rv`, column `q`, written out. -/
theorem kernelForm_at (x0 x1 : Sq.Idx → EReal) (rv : Nat) (hr : rv < 8192) (q : Fin 8192) :
    kernelForm x0 x1 (ix2 (⟨rv, hr⟩ : Fin 8192) q) =
      if rv / 128 = q.val / 128 then
        recipDiv ((∑ k : Fin 8192, x0 (ix2 (⟨rv, hr⟩ : Fin 8192) k) * x1 (ix2 (⟨rv, hr⟩ : Fin 8192) k)) + ((1 : ℝ) : EReal))
            * (x0 (ix2 (⟨rv, hr⟩ : Fin 8192) q) * x1 (ix2 (⟨rv, hr⟩ : Fin 8192) q))
          + recipDiv ((∑ k : Fin 8192, x0 (ix2 (⟨rv, hr⟩ : Fin 8192) k) * x1 (ix2 (⟨rv, hr⟩ : Fin 8192) k)) + ((1 : ℝ) : EReal))
            * (((if rv = q.val then 1 else 0 : ℝ)) : EReal)
      else
        recipDiv ((∑ k : Fin 8192, x0 (ix2 (⟨rv, hr⟩ : Fin 8192) k) * x1 (ix2 (⟨rv, hr⟩ : Fin 8192) k)) + ((1 : ℝ) : EReal))
            * (x0 (ix2 (⟨rv, hr⟩ : Fin 8192) q) * x1 (ix2 (⟨rv, hr⟩ : Fin 8192) q)) := rfl

/-- THE BLOCK IS A BLOCK OF THE KERNEL'S ARRANGEMENT. If the two input blocks are rows `128·n … 128·n + 127` of two
    square arrays and the grid point is `n`, the output block is those rows of `kernelForm`: a row of the block is a
    whole row of the array, so its sum is the array row's sum; the diagonal square of point `n` is the square of the
    array's diagonal those rows meet. -/
theorem block_is_kernelForm (x0 x1 : Sq.Idx → EReal) (i : grid0.Coords) (n : Nat) (hn : n < 64) (hi : (i 0).val = n)
    (b0 b1 : Vec Ideal S128x8192 .f32)
    (hb0 : ∀ (p : Fin 128) (k : Fin 8192), b0 (ix2 p k) = x0 (ix2 (⟨128 * n + p.val, by omega⟩ : Fin 8192) k))
    (hb1 : ∀ (p : Fin 128) (k : Fin 8192), b1 (ix2 p k) = x1 (ix2 (⟨128 * n + p.val, by omega⟩ : Fin 8192) k))
    (p : Fin 128) (q : Fin 8192) :
    outBlock (F := Ideal) i b0 b1 (ix2 p q) = kernelForm x0 x1 (ix2 (⟨128 * n + p.val, by omega⟩ : Fin 8192) q) := by
  rw [outBlock_at, hi, kernelForm_at]
  have hS : rowScale b0 b1 p
      = recipDiv ((∑ k : Fin 8192, x0 (ix2 (⟨128 * n + p.val, by omega⟩ : Fin 8192) k) * x1 (ix2 (⟨128 * n + p.val, by omega⟩ : Fin 8192) k)) + ((1 : ℝ) : EReal)) :=
    congrArg (fun s : EReal => recipDiv (s + ((1 : ℝ) : EReal))) (Finset.sum_congr rfl fun k _ => by rw [hb0 p k, hb1 p k])
  rw [hS, hb0 p q, hb1 p q]
  by_cases h : 128 * n ≤ q.val ∧ q.val < 128 * n + 128
  · rw [if_pos h, if_pos (show (128 * n + p.val) / 128 = q.val / 128 by omega)]
    have e3 : (if p.val + 128 * n = q.val then (1 : ℝ) else 0) = (if 128 * n + p.val = q.val then (1 : ℝ) else 0) :=
      if_congr (by omega) rfl rfl
    rw [e3]
  · rw [if_neg h, if_neg (show ¬((128 * n + p.val) / 128 = q.val / 128) by omega)]

end Cert.KernelIdeal.BlockValue

end
-- ==== Proof.ArrayValue.lean ====
import proofs.«163858_j48447231099314_2_alg».proof.Proof.IdealBody
import proofs.«163858_j48447231099314_2_alg».proof.Proof.BlockForm
import Idealize.ShloMosaic.Lib.Pipeline.Value

set_option maxRecDepth 16384

noncomputable section

namespace Cert.KernelIdeal.ArrayValue

open Cert.KernelIdeal Cert.KernelIdeal.Gen Cert.KernelIdeal.Body Cert.KernelIdeal.BlockValue Cert.RowNormalize
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where the blocks sit -/

/-- The printed index maps, decided over the 64 grid points: point `t` stages row block `t` of each array (block
    column 0), and its grid coordinate is `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- Entry `(p, k)` of the first input's block at point `t` is entry `(128·t + p, k)` of the first argument array. -/
theorem in_block0 (c : Dev nD) (t : Fin cfg0.N) (p : Fin 128) (k : Fin 8192) (h : 128 * t.val + p.val < 8192) :
    iblk m c 0 t (ix2 p k) = V m c main_arg0 (ix2 (⟨128 * t.val + p.val, h⟩ : Fin 8192) k) := by
  show V m c main_arg0 (((cfg0.win 0).blk t).view.emb (ix2 p k)) = _
  refine congrArg (V m c main_arg0) (funext fun a => Fin.ext ?_)
  obtain ⟨e00, e01, -⟩ := idx_facts t
  match a with
  | ⟨0, _⟩ => show win0_0.index t (0 : Fin 2) * 128 + 1 * p.val = 128 * t.val + p.val; omega
  | ⟨1, _⟩ => show win0_0.index t (1 : Fin 2) * 8192 + 1 * k.val = k.val; omega

/-- The same for the second input. -/
theorem in_block1 (c : Dev nD) (t : Fin cfg0.N) (p : Fin 128) (k : Fin 8192) (h : 128 * t.val + p.val < 8192) :
    iblk m c 1 t (ix2 p k) = V m c main_arg1 (ix2 (⟨128 * t.val + p.val, h⟩ : Fin 8192) k) := by
  show V m c main_arg1 (((cfg0.win 1).blk t).view.emb (ix2 p k)) = _
  refine congrArg (V m c main_arg1) (funext fun a => Fin.ext ?_)
  obtain ⟨-, -, e10, e11, -⟩ := idx_facts t
  match a with
  | ⟨0, _⟩ => show win0_1.index t (0 : Fin 2) * 128 + 1 * p.val = 128 * t.val + p.val; omega
  | ⟨1, _⟩ => show win0_1.index t (1 : Fin 2) * 8192 + 1 * k.val = k.val; omega

/-- Entry `(p, q)` of the output's block at point `t` is entry `(128·t + p, q)` of the result array. -/
theorem out_block (t : Fin cfg0.N) (p : Fin 128) (q : Fin 8192) (h : 128 * t.val + p.val < 8192) :
    ((cfg0.win 2).blk t).view.emb (ix2 p q) = ix2 (⟨128 * t.val + p.val, h⟩ : Fin 8192) q := by
  refine funext fun a => Fin.ext ?_
  obtain ⟨-, -, -, -, e20, e21, -⟩ := idx_facts t
  match a with
  | ⟨0, _⟩ => show win0_2.index t (0 : Fin 2) * 128 + 1 * p.val = 128 * t.val + p.val; omega
  | ⟨1, _⟩ => show win0_2.index t (1 : Fin 2) * 8192 + 1 * q.val = q.val; omega

/-! ## What each point writes back -/

/-- The output block of point `t`, at an index of the block, is the kernel's arrangement of the two argument arrays at
    the array index the block places it at. -/
theorem flushed_at (c : Dev nD) (t : Fin cfg0.N) (j : S128x8192.Idx) :
    outBlock (F := Ideal) (grid0.coords t) (iblk m c 0 t) (iblk m c 1 t) j
      = kernelForm (V m c main_arg0) (V m c main_arg1) (((cfg0.win 2).blk t).view.emb j) := by
  obtain ⟨p, q, rfl⟩ : ∃ (p : Fin 128) (q : Fin 8192), j = ix2 p q := ⟨j 0, j 1, eq_ix2 j⟩
  have ht : t.val < 64 := lt_of_lt_of_eq t.isLt N_0
  have hp : 128 * t.val + p.val < 8192 := by have := p.isLt; omega
  obtain ⟨-, -, -, -, -, -, ec⟩ := idx_facts t
  refine (block_is_kernelForm (V m c main_arg0) (V m c main_arg1) (grid0.coords t) t.val ht ec
    (iblk m c 0 t) (iblk m c 1 t)
    (fun p' k => in_block0 m c t p' k (by have := p'.isLt; omega))
    (fun p' k => in_block1 m c t p' k (by have := p'.isLt; omega)) p q).trans ?_
  exact (congrArg (kernelForm (V m c main_arg0) (V m c main_arg1)) (out_block t p q hp)).symm

/-- WHAT POINT `t` WRITES BACK is block `t` of the kernel's arrangement of the two argument arrays. -/
theorem flushed_eq (c : Dev nD) (t : Fin cfg0.N) :
    (dats m 0 c).flushed 2 t
      = ((cfg0.win 2).blk t).view.read (Elt Ideal) (kernelForm (V m c main_arg0) (V m c main_arg1)) := by
  show (cfg0.win 2).cut (grid0.coords t) ((dats m 0 c).after 2 t) = _
  rw [after_out]
  funext j
  exact flushed_at m c t j

/-! ## The blocks fill the array -/

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S128x8192.size a ≤ (i a).val
      ∧ (i a).val < win0_2.index t a * S128x8192.size a + S128x8192.size a := by
  show i ∈ ((View.whole main_v0).slice (win0_2.rect t)).set ↔ _
  rw [View.set_slice_whole, Rect.mem_set_unit]
  exact Iff.rfl

/-- Row `r` lies in the block of point `r / 128`: the 64 row blocks cover the array. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hlt : (i 0).val / 128 < cfg0.N := by rw [show cfg0.N = 64 from N_0]; omega
  refine ⟨⟨(i 0).val / 128, hlt⟩, flush0_2 _, ?_⟩
  rw [mem_blk]
  intro a
  obtain ⟨-, -, -, -, e20, e21, -⟩ := idx_facts ⟨(i 0).val / 128, hlt⟩
  match a with
  | ⟨0, _⟩ =>
    show win0_2.index ⟨(i 0).val / 128, hlt⟩ (0 : Fin 2) * 128 ≤ (i 0).val
      ∧ (i 0).val < win0_2.index ⟨(i 0).val / 128, hlt⟩ (0 : Fin 2) * 128 + 128
    rw [e20]; show (i 0).val / 128 * 128 ≤ (i 0).val ∧ (i 0).val < (i 0).val / 128 * 128 + 128; omega
  | ⟨1, _⟩ =>
    show win0_2.index ⟨(i 0).val / 128, hlt⟩ (1 : Fin 2) * 8192 ≤ (i 1).val
      ∧ (i 1).val < win0_2.index ⟨(i 0).val / 128, hlt⟩ (1 : Fin 2) * 8192 + 8192
    rw [e21]; omega

/-- THE RESULT ARRAY after the run is the kernel's arrangement of the two argument arrays. -/
theorem final (c : Dev nD) :
    (dats m 0 c).arrAt 2 cfg0.N = kernelForm (V m c main_arg0) (V m c main_arg1) :=
  (dats m 0 c).arrAt_eq_of_cover 2 _ (fun t _ => flushed_eq m c t) cover

/-! ## The run, read -/

/-- Every weakly fair execution of the idealized kernel terminates with the result array at the kernel's arrangement
    of the arguments as launched, and the arguments unchanged. -/
theorem run : θ_run defs (onTc (τ := τ) (main (F := Ideal))) ⟨m, fun _ => 0, ρ⟩ fun r => ∀ c : Dev nD,
      r.2.mem ((c : Thread nD τ).loc main_v0)
        = kernelForm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefValue.lean ====
import proofs.«163858_j48447231099314_2_alg».proof.Proof.Gen.ReferenceIdeal.Read
import proofs.«163858_j48447231099314_2_alg».proof.Proof.Spec
import proofs.«163858_j48447231099314_2_alg».proof.Proof.LibCounterCompare

noncomputable section

namespace Cert.ReferenceIdeal.RefValue

open Cert.ReferenceIdeal Cert.ReferenceIdeal.Read Cert.RowNormalize
open Idealize.ShloMosaic Idealize.ShloMosaic.ValueIdx

/-- The reference builds the identity by comparing the row counter (plus zero) with the column counter and converting
    the bit: the entry is the real one on the diagonal and zero off it. -/
theorem eye_entry (j : S8192x8192.Idx) : val_main_v6 (F := Ideal) j = ((eyeAt j : ℝ) : EReal) := by
  rw [val_main_v6_apply, val_main_v5_apply, val_main_v4_apply, val_main_v1_apply, val_main_v3_apply, val_main_c_apply,
    val_main_v2_apply]
  rw [show IntOp.addi (BitVec.ofNat 32 (j 0).val) 0#32 = BitVec.ofNat 32 (j 0).val from by simp [IntOp.addi]]
  exact uitofp_cmpi_eq _ _ (j 0).isLt (j 1).isLt

/-- An entry of `mx = x0 · x1 + I`. -/
theorem mx_entry (x0 x1 : S8192x8192.Idx → EReal) (j : S8192x8192.Idx) :
    val_main_v7 (F := Ideal) x0 x1 j = x0 j * x1 j + ((eyeAt j : ℝ) : EReal) := by
  rw [val_main_v7_apply, val_main_v0_apply, eye_entry]; rfl

/-- A row's scale: the `(-1)`-st power of the row sum with the infinite values replaced by zero. -/
theorem scale_entry (x0 x1 : S8192x8192.Idx → EReal) (s : S8192.Idx) :
    val_main_v12 (F := Ideal) x0 x1 s = recipPow (val_main_v8 (F := Ideal) x0 x1 s) := by
  rw [val_main_v12_apply, val_main_v11_apply, val_main_call0_v0_apply, val_main_call0_v1_apply, val_main_call0_cst_apply,
    val_main_call1_v1_apply, val_main_call1_v0_apply, val_main_cst_1_apply, val_main_v10_apply, val_main_v9_apply,
    val_main_cst_0_apply]
  rfl

/-- THE REFERENCE'S RESULT, index by index, is the reference's arrangement of the specification: the row scale is read
    at the entry's row, the row sum runs over that row's columns. -/
theorem result_eq (x0 x1 : S8192x8192.Idx → EReal) (i : S8192x8192.Idx) :
    val_main_v15 (F := Ideal) x0 x1 i = refForm x0 x1 i := by
  have hidx : ∀ k : Fin 8192, idx_main_v8 (idx_main_v13 (idx_main_v14 i)) k = ix2 (i 0) k := fun k =>
    funext fun a => Fin.ext (by match a with | ⟨0, _⟩ => rfl | ⟨1, _⟩ => rfl)
  rw [val_main_v15_apply, val_main_v14_apply, val_main_v13_apply, scale_entry, val_main_v8_apply]
  simp only [hidx, mx_entry, val_main_cst_apply, Ideal.ofBits_def, Ideal.ofBits_zero_f32]
  unfold refForm
  show recipPow (0 + ∑ k : Fin 8192, val_main_v7 (F := Ideal) x0 x1 (ix2 (i 0) k)) * (x0 i * x1 i + ((eyeAt i : ℝ) : EReal)) = _
  refine congrArg (fun s : EReal => recipPow (0 + s) * (x0 i * x1 i + ((eyeAt i : ℝ) : EReal))) ?_
  exact Finset.sum_congr rfl fun k _ => mx_entry x0 x1 (ix2 (i 0) k)

end Cert.ReferenceIdeal.RefValue

end
-- ==== Proof.Finite.lean ====
import proofs.«163858_j48447231099314_2_alg».proof.Proof.Gen.Pre_finite_inputs
import proofs.«163858_j48447231099314_2_alg».proof.Proof.LibGuardedInverse
import Idealize.ShloMosaic.Lib.ReduceAll
import Idealize.ShloMosaic.Lib.Pipeline.Value
import Idealize.ShloMosaic.Lib.ValueIdx

noncomputable section

namespace Cert.RowNormalize

open Idealize.ShloMosaic Idealize.ShloMosaic.ValueIdx Cert.Pre_finite_inputs

/-- The rank-zero shape has one index. -/
instance subsingleton_scalar_idx : Subsingleton S_.Idx := ⟨fun a b => funext fun d => d.elim0⟩

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    have : Ideal.cmp .olt (max x (-x)) (⊤ : EReal) = 0#1 := by
      simp only [Ideal.cmp, decide_eq_false hn, BitVec.ofBool_false]; rfl
    rw [this] at h
    exact absurd h (by decide)
  induction x using EReal.rec with
  | bot => exact absurd hlt (by simp)
  | top => exact absurd hlt (by simp)
  | coe r => exact ⟨r, rfl⟩

/-- THE PRECONDITION, DECODED: `finite_inputs` all ones says every entry of both arrays is a real number — each
    `jnp.all` holds at every index, and there it says `|x| < +inf`. -/
theorem entries_real (x0 x1 : S8192x8192.Idx → EReal) (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.mp h0
  refine ⟨fun i => ?_, fun i => ?_⟩
  · have e := Host.reduce_andi_all _ _ _ _ ix0 ha i
    refine real_of_abs_lt_inf (x0 i) ?_
    have hb' : broadcastInDim S8192x8192 ![] Facts.bcast_S_S8192x8192 (constant (F := Ideal) S_ .f32 0x7F800000#32) i
        = Ideal.ofBits .f32 0x7F800000#32 :=
      broadcastInDim_apply _ Facts.bcast_S_S8192x8192 (constant (F := Ideal) S_ .f32 0x7F800000#32) i ix0 (fun a => a.elim0)
    rw [← hb']
    exact e
  · have e := Host.reduce_andi_all _ _ _ _ ix0 hb i
    refine real_of_abs_lt_inf (x1 i) ?_
    have hb' : broadcastInDim S8192x8192 ![] Facts.bcast_S_S8192x8192 (constant (F := Ideal) S_ .f32 0x7F800000#32) i
        = Ideal.ofBits .f32 0x7F800000#32 :=
      broadcastInDim_apply _ Facts.bcast_S_S8192x8192 (constant (F := Ideal) S_ .f32 0x7F800000#32) i ix0 (fun a => a.elim0)
    rw [← hb']
    exact e

/-- So both arrays are the images of arrays of reals. -/
theorem real_arrays (x0 x1 : S8192x8192.Idx → EReal) (h : fn (F := Ideal) x0 x1 = fun _ => 1#1) :
    ∃ A0 A1 : S8192x8192.Idx → ℝ, x0 = (fun j => ((A0 j : ℝ) : EReal)) ∧ x1 = (fun j => ((A1 j : ℝ) : EReal)) := by
  obtain ⟨h0, h1⟩ := entries_real x0 x1 h
  choose A0 hA0 using h0
  choose A1 hA1 using h1
  exact ⟨A0, A1, funext hA0, funext hA1⟩

end Cert.RowNormalize

end
-- ==== Proof.lean ====
/-
  Row normalization of `A = estimated_adj ∘ ori` (entrywise product) plus the identity, over f32[8192, 8192]:
  `out = diag(r) · (A + I)` with `r = 1 / rowsum(A + I)`, an infinite `r` replaced by zero.

  THE KERNEL works on 64 row blocks of 128 full rows. In a block it forms `a = x0 · x1`, the row sums `Σ_k a(p,k)`,
  adds the identity's contribution as a plain `+ 1` to each row sum, takes `r = 1.0 / rowsum` (guarded), stores
  `r · a` through the whole block, then reads the 128 × 128 square on the diagonal back and stores it again with
  `r · eye` added. THE REFERENCE forms `mx = a + I` on the whole array, sums its rows, takes `rowsum ** (-1.0)`
  (guarded) and multiplies.

  Why they agree on the extended reals, given finite inputs (the precondition):
  • every entry being a real, the row sums are reals, and summing `a + I` along a row adds exactly one to the row sum
    of `a` (a row of the identity has exactly one 1);
  • on a real `s` both reciprocals are the real inverse `s⁻¹` with `0⁻¹ = 0`: off zero `1/s = s^(-1) = s⁻¹`; at zero the
    quotient is `+∞`, which the guard replaces by zero, and the real power `0^(-1)` is zero already;
  • the guarded scale being real, `r·a + r·δ = r·(a + δ)` (distributivity, false at an infinite scale); outside the
    diagonal square `δ = 0`, since a diagonal index lies in the square of its own row block.

  The frames of the two kernel programs are proved from the body's triple: the body loads the output buffer before
  storing into it (a value nothing uses), stores the whole block, reads the diagonal square back — finding the first
  store's payload there — and stores the corrected square; the block's final contents are named as the canon of the
  two stores. The reference's frame is its run with the result dropped.
-/
import proofs.«163858_j48447231099314_2_alg».proof.Defs
import proofs.«163858_j48447231099314_2_alg».proof.Proof.Gen.Kernel
import proofs.«163858_j48447231099314_2_alg».proof.Proof.Gen.KernelIdeal
import proofs.«163858_j48447231099314_2_alg».proof.Proof.Gen.ReferenceIdeal
import proofs.«163858_j48447231099314_2_alg».proof.Proof.Gen.ReferenceIdeal.Run
import proofs.«163858_j48447231099314_2_alg».proof.Proof.Gen.ReferenceIdeal.Read
import proofs.«163858_j48447231099314_2_alg».proof.Proof.Gen.Pre_finite_inputs
import proofs.«163858_j48447231099314_2_alg».proof.Proof.BitsBody
import proofs.«163858_j48447231099314_2_alg».proof.Proof.IdealBody
import proofs.«163858_j48447231099314_2_alg».proof.Proof.ArrayValue
import proofs.«163858_j48447231099314_2_alg».proof.Proof.RefValue
import proofs.«163858_j48447231099314_2_alg».proof.Proof.Finite
import proofs.«163858_j48447231099314_2_alg».proof.Proof.Spec

noncomputable section

namespace Cert.Proof

open Idealize.ShloMosaic Idealize.ShloMosaic.TcCoe Idealize.SL.Sem Cert.RowNormalize

/-- The word-level kernel runs and leaves its two arguments unchanged. -/
theorem frame_kernel : Cert.frame_Kernel := fun m ρ _ => Cert.Kernel.Body.frame m ρ

/-- So does the idealized kernel. -/
theorem frame_kernel_ideal : Cert.frame_KernelIdeal := fun m ρ _ => Cert.KernelIdeal.Body.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the extended reals. -/
theorem preserves : Cert.preserves_Kernel_KernelIdeal := trivial

/-- On finite inputs the idealized kernel's result array (the kernel's arrangement, block by block) and the
    reference's (its own arrangement, operation by operation) are one array: the law of the specification on the real
    arrays the precondition provides. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  obtain ⟨A0, A1, h0, h1⟩ := real_arrays _ _ (hpre c)
  rw [h0, h1]
  funext i
  rw [Cert.ReferenceIdeal.RefValue.result_eq]
  exact (kernelForm_eq_refForm A0 A1 i).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
